-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x128 : Shape := ⟨2, ![64, 128]⟩
abbrev S128x128 : Shape := ⟨2, ![128, 128]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S64x128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x64 .f32) (main_arg1 : FVec F S800000 .f32) (main_arg2 : FVec F S64x128 .f32) (main_arg3 : FVec F S128x128 .f32) (main_arg4 : FVec F S64x128 .f32) (main_arg5 : FVec F S128 .f32) (main_arg6 : IVec S800000 32) (main_arg7 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x64 : Shape := ⟨2, ![50000, 64]⟩
abbrev S800000 : Shape := ⟨1, ![800000]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩

abbrev nBuf : Space → Nat
  | .hbm => 49
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x128, .f32⟩
  | .hbm, ⟨3, _⟩ => ⟨S128x128, .f32⟩
  | .hbm, ⟨4, _⟩ => ⟨S64x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S800000x1, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S64x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x128 : Shape := ⟨2, ![64, 128]⟩
abbrev S128x128 : Shape := ⟨2, ![128, 128]⟩
abbrev S128 : Shape := ⟨1, ![128]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x128, .f32⟩
  | .hbm, ⟨3, _⟩ => ⟨S128x128, .f32⟩
  | .hbm, ⟨4, _⟩ => ⟨S64x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x1, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result array named.

  The program is five segments: a reshape of the bias row, the first launch (two products of a block of rows of x,
  one of them with the bias row added), the first neighbourhood sum on the host, the second launch (maximum with
  zero, residual added, a product), and the second neighbourhood sum with the closing maximum and residual on the
  host. The launch theorem for such a chain of segments hands back, for every buffer that outlives the launches,
  the contents at the last boundary of the fold through the segments; here that is read at the result buffer as
  well as at the eight arguments.
-/
import proofs.«135990_j15195594293517_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of the fold through the five segments, and the eight arguments end as launched. -/
theorem run_result : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Hand

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibDense.lean ====
/-
  A dense layer on the extended reals: a matrix product of an M × K by a K × N matrix plus one row of N numbers
  added to every row of the product, optionally followed by the maximum with zero.

  Two spellings of the same layer meet here. On the vector unit the product is a matrix-unit product into a zero
  accumulator of operands whose change of float format is the identity on extended reals, and the row is a
  [1, N] vector broadcast down the rows. On the host the product is a plain `dot_general` and the row a
  `broadcast_in_dim`. Entry (r, c) of either is Σ_k X (r, k) · W (k, c) + B (0, c), so the two agree entry by
  entry — also when the vector unit only sees a block of TM rows of X, as long as row p of the block is row r of X.
-/
import Idealize.ShloMosaic.PureOps.Ideal.Laws
import Idealize.ShloMosaic.Lib.Pipeline.Value
import Idealize.ShloMosaic.Lib.ValueIdx
import Idealize.ShloMosaic.Lib.ValueLayout
import proofs.«135990_j15195594293517_2_alg».proof.Proof.LibPlainMatmul
import proofs.«135990_j15195594293517_2_alg».proof.Proof.LibHostReads

noncomputable section

open scoped BigOperators

namespace Cert.Dense

open Idealize.ShloMosaic Idealize.ShloMosaic.ValueIdx

/-- Entry (r, c) of a dense layer: Σ_k X (r, k) · W (k, c) + B (0, c). -/
def entry (M K N : Nat) (X : FVec Ideal ⟨2, ![M, K]⟩ .f32) (W : FVec Ideal ⟨2, ![K, N]⟩ .f32)
    (B : FVec Ideal ⟨2, ![1, N]⟩ .f32) (r : Fin M) (c : Fin N) : EReal :=
  (∑ k : Fin K, X (ix2 r k) * W (ix2 k c)) + B (ix2 (0 : Fin 1) c)

/-- The host's spelling of the layer: a plain product plus the row broadcast to every row. -/
def host (M K N : Nat) (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's spelling read at (r, c). -/
theorem host_apply (M K N : Nat) (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32)
    (r : Fin M) (c : Fin N) : host M K N h2 X W B (ix2 r c) = entry M K N X W B r c := by
  unfold host entry
  rw [addf_apply, Cert.LibHostReads.dotGeneral_plain_apply]
  refine congrArg (fun z => (∑ k : Fin K, X (ix2 r k) * W (ix2 k c)) + z) ?_
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The vector unit's spelling of the layer on a block of TM rows: the product into a zero accumulator of the two
    operands after their change of format, plus the row broadcast down the block. -/
def body (TM K N : Nat) (hbf : FTy.bf16.bits < FTy.f32.bits) (hs : (⟨2, ![1, N]⟩ : Shape).ShapeCasts ⟨2, ![1, N]⟩)
    (hb : (⟨2, ![1, N]⟩ : Shape).Broadcasts ⟨2, ![TM, N]⟩)
    (x : FVec Ideal ⟨2, ![TM, K]⟩ .f32) (w : FVec Ideal ⟨2, ![K, N]⟩ .f32) (b : FVec Ideal ⟨2, ![1, N]⟩ .f32) :
    FVec Ideal ⟨2, ![TM, N]⟩ .f32 :=
  addf (matmul (DotDims.plain TM K N) none (truncf .bf16 x hbf) (truncf .bf16 w hbf) (constant ⟨2, ![TM, N]⟩ .f32 0x00000000#32))
    (broadcastTo ⟨2, ![TM, N]⟩ (shapeCast ⟨2, ![1, N]⟩ b hs) hb)

/-- The vector unit's spelling read at (p, c). -/
theorem body_apply (TM K N : Nat) (hbf : FTy.bf16.bits < FTy.f32.bits) (hs : (⟨2, ![1, N]⟩ : Shape).ShapeCasts ⟨2, ![1, N]⟩)
    (hb : (⟨2, ![1, N]⟩ : Shape).Broadcasts ⟨2, ![TM, N]⟩)
    (x : FVec Ideal ⟨2, ![TM, K]⟩ .f32) (w : FVec Ideal ⟨2, ![K, N]⟩ .f32) (b : FVec Ideal ⟨2, ![1, N]⟩ .f32)
    (p : Fin TM) (c : Fin N) : body TM K N hbf hs hb x w b (ix2 p c) = entry TM K N x w b p c := by
  unfold body entry
  rw [addf_apply]
  refine congrArg₂ (· + ·) ?_ ?_
  · exact Cert.PlainMatmul.matmul_zero_apply TM K N none (truncf .bf16 x hbf) (truncf .bf16 w hbf) p c
  · rw [shapeCast_self]
    exact broadcastTo_1b_ab_apply b hb p c

/-- A block against the whole: when row p of the block is row r of X, and the block's other two operands are W
    and B whole, entry (p, c) of the vector unit's layer on the block is entry (r, c) of the host's layer on X. -/
theorem body_eq_host (M TM K N : Nat) (hbf : FTy.bf16.bits < FTy.f32.bits)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32)
    (x : FVec Ideal ⟨2, ![TM, K]⟩ .f32) (w : FVec Ideal ⟨2, ![K, N]⟩ .f32) (b : FVec Ideal ⟨2, ![1, N]⟩ .f32)
    (p : Fin TM) (r : Fin M) (c : Fin N)
    (ex : ∀ k : Fin K, x (ix2 p k) = X (ix2 r k)) (ew : w = W) (eb : b = B) :
    body TM K N hbf hs hb x w b (ix2 p c) = host M K N h2 X W B (ix2 r c) := by
  rw [body_apply, host_apply]
  subst ew eb
  unfold entry
  refine congrArg (fun z => z + b (ix2 (0 : Fin 1) c)) ?_
  exact Finset.sum_congr rfl fun k _ => by rw [ex k]

/-- The maximum with zero, in the host's spelling: the zero is a rank-zero constant broadcast to the whole shape. -/
def relu (s : Shape) (h : (⟨0, ![]⟩ : Shape).BroadcastsInDim s ![]) (Y : FVec Ideal s .f32) : FVec Ideal s .f32 :=
  maximumf Y (broadcastInDim s ![] h (constant (F := Ideal) ⟨0, ![]⟩ .f32 0x00000000#32))

/-- It reads, at any index, the maximum of the entry and the zero word's value. -/
theorem relu_apply (s : Shape) (h : (⟨0, ![]⟩ : Shape).BroadcastsInDim s ![]) (Y : FVec Ideal s .f32) (i : s.Idx) :
    relu s h Y i = max (Y i) (Scalar.ofBits (F := Ideal) .f32 0x00000000#32) := by
  unfold relu
  rw [maximumf_apply, broadcastInDim_apply ![] h (constant (F := Ideal) ⟨0, ![]⟩ .f32 0x00000000#32) i (fun a => a.elim0) (fun a => a.elim0)]
  rfl

/-- The zero the vector unit compares against (a scalar splat) is the zero the host compares against (a constant
    broadcast from rank zero): the same word at every index. -/
theorem zeros_eq (s : Shape) (h : (⟨0, ![]⟩ : Shape).BroadcastsInDim s ![]) :
    (broadcast s (Scalar.ofBits (F := Ideal) .f32 0x00000000#32) : FVec Ideal s .f32)
      = broadcastInDim s ![] h (constant (F := Ideal) ⟨0, ![]⟩ .f32 0x00000000#32) := by
  funext i
  exact (broadcastInDim_apply ![] h (constant (F := Ideal) ⟨0, ![]⟩ .f32 0x00000000#32) i (fun a => a.elim0) (fun a => a.elim0)).symm

/-- A flat row of N numbers reshaped to [1, N] is the same row broadcast into [1, N] along its one axis. -/
theorem row_eq (N : Nat) (v : FVec Ideal ⟨1, ![N]⟩ .f32) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

end Cert.Dense

end
-- ==== Proof.FirstLaunch.lean ====
/-
  The first launch, read as two whole arrays.

  The launch walks ten blocks of 5000 rows of x. At block t it multiplies rows 5000 t … 5000 t + 4999 of x by the
  whole of W1, and by the whole of Wres with the bias row added to every row, and writes the two products back as
  rows 5000 t … 5000 t + 4999 of its two result arrays. Entry (r, c) of a product depends on row r of x alone, so
  row p of block t of the blocked product is row 5000 t + p of the product of the whole of x: after the ten blocks
  the first result array is x · W1 and the second is x · Wres + bias, each as the host would compute it in one
  operation. The ten blocks tile the 50000 rows, which is what makes this the array's value at every index.
-/
import proofs.«135990_j15195594293517_2_alg».proof.Proof.Gen.KernelIdeal.Frame
import proofs.«135990_j15195594293517_2_alg».proof.Proof.LibDense
import Idealize.ShloMosaic.Lib.Pipeline.Value
import Idealize.ShloMosaic.Lib.ValueIdx

set_option maxRecDepth 16384

noncomputable section

namespace Cert.KernelIdeal.First

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the three row-blocked windows (x and the two results) at block row
    t, the three whole-array windows (W1, Wres, the bias row) at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The blocks the body is handed -/

/-- Row p of the block of x at point t is row 5000 t + p of x. -/
theorem x_blk (c : Dev nD) (t : Fin cfg0.N) (p : Fin 5000) (k : Fin 64) (r : Fin 50000) (hr : r.val = t.val * 5000 + p.val) :
    (iblk0 V c 0 t : FVec Ideal S5000x64 .f32) (ix2 p k) = (V c main_arg0 : FVec Ideal S50000x64 .f32) (ix2 r k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The block of W1 at any point is W1. -/
theorem w1_blk (c : Dev nD) (t : Fin cfg0.N) : (iblk0 V c 1 t : FVec Ideal S64x128 .f32) = V c main_arg2 := by
  obtain ⟨-, -, e2, e3, -⟩ := idx_facts t
  funext j
  obtain ⟨k, q, rfl⟩ : ∃ (k : Fin 64) (q : Fin 128), j = ix2 k q := ⟨j 0, j 1, eq_ix2 j⟩
  unfold iblk0
  rw [View.read_apply]
  show V c main_arg2 _ = V c main_arg2 _
  refine congrArg (V c main_arg2) ?_
  funext a
  apply Fin.ext
  match a with
  | ⟨0, _⟩ => show win0_1.index t (0 : Fin 2) * 64 + 1 * k.val = k.val; rw [e2]; omega
  | ⟨1, _⟩ => show win0_1.index t (1 : Fin 2) * 128 + 1 * q.val = q.val; rw [e3]; omega

/-- The block of Wres at any point is Wres. -/
theorem wres_blk (c : Dev nD) (t : Fin cfg0.N) : (iblk0 V c 2 t : FVec Ideal S64x128 .f32) = V c main_arg4 := by
  obtain ⟨-, -, -, -, e4, e5, -⟩ := idx_facts t
  funext j
  obtain ⟨k, q, rfl⟩ : ∃ (k : Fin 64) (q : Fin 128), j = ix2 k q := ⟨j 0, j 1, eq_ix2 j⟩
  unfold iblk0
  rw [View.read_apply]
  show V c main_arg4 _ = V c main_arg4 _
  refine congrArg (V c main_arg4) ?_
  funext a
  apply Fin.ext
  match a with
  | ⟨0, _⟩ => show win0_2.index t (0 : Fin 2) * 64 + 1 * k.val = k.val; rw [e4]; omega
  | ⟨1, _⟩ => show win0_2.index t (1 : Fin 2) * 128 + 1 * q.val = q.val; rw [e5]; omega

/-- The block of the bias row at any point is the bias row. -/
theorem bias_blk (c : Dev nD) (t : Fin cfg0.N) : (iblk0 V c 3 t : FVec Ideal S1x128 .f32) = V c main_v0 := by
  obtain ⟨-, -, -, -, -, -, e6, e7, -⟩ := idx_facts t
  funext j
  obtain ⟨z, q, rfl⟩ : ∃ (z : Fin 1) (q : Fin 128), j = ix2 z q := ⟨j 0, j 1, eq_ix2 j⟩
  unfold iblk0
  rw [View.read_apply]
  show V c main_v0 _ = V c main_v0 _
  refine congrArg (V c main_v0) ?_
  funext a
  apply Fin.ext
  match a with
  | ⟨0, _⟩ => show win0_3.index t (0 : Fin 2) * 1 + 1 * z.val = z.val; rw [e6]; omega
  | ⟨1, _⟩ => show win0_3.index t (1 : Fin 2) * 128 + 1 * q.val = q.val; rw [e7]; omega

/-! ## The two results as whole arrays -/

/-- x · W1, as the host computes it. -/
def xw1 (c : Dev nD) : FVec Ideal S50000x128 .f32 :=
  Host.dotGeneral (F := Ideal) (φ₁ := .f32) (φ₂ := .f32) (DotDims.plain 50000 64 128) none (V c main_arg0) (V c main_arg2)

/-- x · Wres with the bias row added to every row, as the host computes it. -/
def xwres (h2 : (⟨2, ![1, 128]⟩ : Shape).BroadcastsInDim ⟨2, ![50000, 128]⟩ ![0, 1]) (c : Dev nD) : FVec Ideal S50000x128 .f32 :=
  Cert.Dense.host 50000 64 128 h2 (V c main_arg0 : FVec Ideal S50000x64 .f32) (V c main_arg4 : FVec Ideal S64x128 .f32) (V c main_v0 : FVec Ideal S1x128 .f32)

/-- The first store's payload at (p, q): row p of the x block against column q of the W1 block. -/
theorem pay2_apply (x0 : FVec Ideal S5000x64 .f32) (x1 : FVec Ideal S64x128 .f32) (p : Fin 5000) (q : Fin 128) :
    (k0_pay2 x0 x1 : FVec Ideal S5000x128 .f32) (ix2 p q) = ∑ k : Fin 64, x0 (ix2 p k) * x1 (ix2 k q) := by
  unfold k0_pay2 k0_pay1
  exact Cert.PlainMatmul.matmul_zero_apply 5000 64 128 none (truncf .bf16 x0 bitsLt_bf16_f32) (truncf .bf16 x1 bitsLt_bf16_f32) p q

/-- The second store's payload is the dense layer on the block. -/
theorem pay3_eq (x0 : FVec Ideal S5000x64 .f32) (x2 : FVec Ideal S64x128 .f32) (x3 : FVec Ideal S1x128 .f32) :
    (k0_pay3 x0 x2 x3 : FVec Ideal S5000x128 .f32)
      = Cert.Dense.body 5000 64 128 bitsLt_bf16_f32 shapeCasts_S1x128_S1x128 broadcasts_S1x128_S5000x128 x0 x2 x3 := rfl

/-- Where (p, q) of the block of a result window at point t sits in the result array. -/
theorem out4_emb (t : Fin cfg0.N) (p : Fin 5000) (q : Fin 128) (r : Fin 50000) (hr : r.val = t.val * 5000 + p.val) :
    ((cfg0.win 4).blk t).view.emb (ix2 p q) = (ix2 r q : S50000x128.Idx) := by
  obtain ⟨-, -, -, -, -, -, -, -, e8, e9, -⟩ := idx_facts t
  funext a
  apply Fin.ext
  match a with
  | ⟨0, _⟩ => show win0_4.index t (0 : Fin 2) * 5000 + 1 * p.val = r.val; rw [e8, hr]; omega
  | ⟨1, _⟩ => show win0_4.index t (1 : Fin 2) * 128 + 1 * q.val = q.val; rw [e9]; omega

theorem out5_emb (t : Fin cfg0.N) (p : Fin 5000) (q : Fin 128) (r : Fin 50000) (hr : r.val = t.val * 5000 + p.val) :
    ((cfg0.win 5).blk t).view.emb (ix2 p q) = (ix2 r q : S50000x128.Idx) := by
  obtain ⟨-, -, -, -, -, -, -, -, -, -, e10, e11⟩ := idx_facts t
  funext a
  apply Fin.ext
  match a with
  | ⟨0, _⟩ => show win0_5.index t (0 : Fin 2) * 5000 + 1 * p.val = r.val; rw [e10, hr]; omega
  | ⟨1, _⟩ => show win0_5.index t (1 : Fin 2) * 128 + 1 * q.val = q.val; rw [e11]; omega

/-- What point t writes back into the first result array is block t of x · W1. -/
theorem flushed4_eq (c : Dev nD) (t : Fin cfg0.N) :
    (dat0 V c).flushed 4 t = ((cfg0.win 4).blk t).view.read (Elt Ideal) (xw1 V c) := by
  have ht : t.val < 10 := lt_of_lt_of_eq t.isLt N_0
  show (cfg0.win 4).cut (grid0.coords t) ((dat0 V c).after 4 t) = _
  rw [after0_4]
  unfold out0_4
  rw [View.canon_unit_zero hz]
  simp only [View.ld_unit_zero (S := S5000x64) hz, View.ld_unit_zero (S := S64x128) hz]
  funext j
  obtain ⟨p, q, rfl⟩ : ∃ (p : Fin 5000) (q : Fin 128), j = ix2 p q := ⟨j 0, j 1, eq_ix2 j⟩
  show (k0_pay2 (iblk0 V c 0 t) (iblk0 V c 1 t) : FVec Ideal S5000x128 .f32) (ix2 p q) = xw1 V c (((cfg0.win 4).blk t).view.emb (ix2 p q))
  have hp : p.val < 5000 := p.isLt
  rw [out4_emb t p q ⟨t.val * 5000 + p.val, by omega⟩ rfl]
  refine (pay2_apply (iblk0 V c 0 t) (iblk0 V c 1 t) p q).trans ?_
  unfold xw1
  refine ((Cert.LibHostReads.dotGeneral_plain_apply 50000 64 128 (φ₁ := .f32) (φ₂ := .f32) none (V c main_arg0) (V c main_arg2) ⟨t.val * 5000 + p.val, by omega⟩ q).trans ?_).symm
  refine Finset.sum_congr rfl fun k _ => ?_
  rw [x_blk V c t p k ⟨t.val * 5000 + p.val, by omega⟩ rfl, w1_blk V c t]

/-- What point t writes back into the second result array is block t of x · Wres + bias. -/
theorem flushed5_eq (h2 : (⟨2, ![1, 128]⟩ : Shape).BroadcastsInDim ⟨2, ![50000, 128]⟩ ![0, 1]) (c : Dev nD) (t : Fin cfg0.N) :
    (dat0 V c).flushed 5 t = ((cfg0.win 5).blk t).view.read (Elt Ideal) (xwres V h2 c) := by
  have ht : t.val < 10 := lt_of_lt_of_eq t.isLt N_0
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  show (k0_pay3 (iblk0 V c 0 t) (iblk0 V c 2 t) (iblk0 V c 3 t) : FVec Ideal S5000x128 .f32) (ix2 p q) = xwres V h2 c (((cfg0.win 5).blk t).view.emb (ix2 p q))
  have hp : p.val < 5000 := p.isLt
  rw [out5_emb t p q ⟨t.val * 5000 + p.val, by omega⟩ rfl, pay3_eq]
  unfold xwres
  exact Cert.Dense.body_eq_host 50000 5000 64 128 bitsLt_bf16_f32 shapeCasts_S1x128_S1x128 broadcasts_S1x128_S5000x128 h2
    (V c main_arg0) (V c main_arg4) (V c main_v0) (iblk0 V c 0 t) (iblk0 V c 2 t) (iblk0 V c 3 t) p ⟨t.val * 5000 + p.val, by omega⟩ q
    (fun k => x_blk V c t p k ⟨t.val * 5000 + p.val, by omega⟩ rfl) (wres_blk V c t) (bias_blk V c t)

/-! ## The ten blocks tile the rows -/

theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v1_0).slice (win0_4.rect t)).set ↔ _
  rw [View.set_slice_whole, Rect.mem_set_unit]
  exact Iff.rfl

theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v1_1).slice (win0_5.rect t)).set ↔ _
  rw [View.set_slice_whole, Rect.mem_set_unit]
  exact Iff.rfl

/-- Row r lies in the block of point r / 5000. -/
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, e8, e9, -⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; rw [e8, ht]; omega
  | ⟨1, _⟩ => show win0_4.index t (1 : Fin 2) * 128 ≤ (i 1).val ∧ (i 1).val < win0_4.index t (1 : Fin 2) * 128 + 128; rw [e9]; omega

theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, e10, e11⟩ := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; rw [e10, ht]; omega
  | ⟨1, _⟩ => show win0_5.index t (1 : Fin 2) * 128 ≤ (i 1).val ∧ (i 1).val < win0_5.index t (1 : Fin 2) * 128 + 128; rw [e11]; omega

/-- After the launch the first result array is x · W1. -/
theorem final4 (c : Dev nD) : (dat0 V c).arrAt 4 cfg0.N = xw1 V c :=
  (dat0 V c).arrAt_eq_of_cover 4 (xw1 V c) (fun t _ => flushed4_eq V c t) cover4

/-- After the launch the second result array is x · Wres + bias. -/
theorem final5 (h2 : (⟨2, ![1, 128]⟩ : Shape).BroadcastsInDim ⟨2, ![50000, 128]⟩ ![0, 1]) (c : Dev nD) :
    (dat0 V c).arrAt 5 cfg0.N = xwres V h2 c :=
  (dat0 V c).arrAt_eq_of_cover 5 (xwres V h2 c) (fun t _ => flushed5_eq V h2 c t) cover5

end Cert.KernelIdeal.First

end
-- ==== Proof.SecondLaunch.lean ====
/-
  The second launch, read as two whole arrays.

  The launch walks ten blocks of 5000 rows of two arrays it is handed: the first neighbourhood sum and the residual
  term x · Wres + bias. At block t it forms, row by row, the maximum of the sum with zero plus the residual — the
  hidden layer — and writes it back as rows 5000 t … 5000 t + 4999 of its first result array; then it multiplies
  those rows by the whole of W2 and writes the product back as the same rows of its second result array. The hidden
  layer is pointwise and the product of a row depends on that row alone, so after the ten blocks the first result
  is the hidden layer of the whole arrays and the second is that hidden layer times W2, each as the host would
  compute it in one operation.
-/
import proofs.«135990_j15195594293517_2_alg».proof.Proof.Gen.KernelIdeal.Frame
import proofs.«135990_j15195594293517_2_alg».proof.Proof.LibDense
import Idealize.ShloMosaic.Lib.Pipeline.Value
import Idealize.ShloMosaic.Lib.ValueIdx

set_option maxRecDepth 16384

noncomputable section

namespace Cert.KernelIdeal.Second

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the four row-blocked windows at block row t, W2 at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## The blocks the body is handed -/

/-- Row p of the block of the neighbourhood sum at point t is row 5000 t + p of it. -/
theorem sum_blk (c : Dev nD) (t : Fin cfg1.N) (p : Fin 5000) (q : Fin 128) (r : Fin 50000) (hr : r.val = t.val * 5000 + p.val) :
    (iblk1 V c 0 t : FVec Ideal S5000x128 .f32) (ix2 p q) = (V c main_v14 : FVec Ideal S50000x128 .f32) (ix2 r q) := by
  obtain ⟨e0, e1, -⟩ := idx_facts t
  unfold iblk1
  rw [View.read_apply]
  show V c main_v14 _ = V c main_v14 _
  refine congrArg (V c main_v14) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Row p of the block of the residual term at point t is row 5000 t + p of it. -/
theorem res_blk (c : Dev nD) (t : Fin cfg1.N) (p : Fin 5000) (q : Fin 128) (r : Fin 50000) (hr : r.val = t.val * 5000 + p.val) :
    (iblk1 V c 1 t : FVec Ideal S5000x128 .f32) (ix2 p q) = (V c main_v1_1 : FVec Ideal S50000x128 .f32) (ix2 r q) := by
  obtain ⟨-, -, e2, e3, -⟩ := idx_facts t
  unfold iblk1
  rw [View.read_apply]
  show V c main_v1_1 _ = V c main_v1_1 _
  refine congrArg (V c main_v1_1) ?_
  funext a
  apply Fin.ext
  match a with
  | ⟨0, _⟩ => show win1_1.index t (0 : Fin 2) * 5000 + 1 * p.val = r.val; rw [e2, hr]; omega
  | ⟨1, _⟩ => show win1_1.index t (1 : Fin 2) * 128 + 1 * q.val = q.val; rw [e3]; omega

/-- The block of W2 at any point is W2. -/
theorem w2_blk (c : Dev nD) (t : Fin cfg1.N) : (iblk1 V c 2 t : FVec Ideal S128x128 .f32) = V c main_arg3 := by
  obtain ⟨-, -, -, -, e4, e5, -⟩ := idx_facts t
  funext j
  obtain ⟨k, q, rfl⟩ : ∃ (k : Fin 128) (q : Fin 128), j = ix2 k q := ⟨j 0, j 1, eq_ix2 j⟩
  unfold iblk1
  rw [View.read_apply]
  show V c main_arg3 _ = V c main_arg3 _
  refine congrArg (V c main_arg3) ?_
  funext a
  apply Fin.ext
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-! ## The two results as whole arrays -/

/-- The hidden layer: the maximum of the neighbourhood sum with zero, plus the residual term, as the host spells it. -/
def hiddenOf (Y Z : FVec Ideal S50000x128 .f32) : FVec Ideal S50000x128 .f32 :=
  addf (Cert.Dense.relu S50000x128 bcast_S_S50000x128 Y) Z

/-- The hidden layer of the two arrays the launch is handed. -/
def hidden (c : Dev nD) : FVec Ideal S50000x128 .f32 := hiddenOf (V c main_v14) (V c main_v1_1)

/-- The hidden layer times W2, as the host computes it. -/
def hiddenW2 (c : Dev nD) : FVec Ideal S50000x128 .f32 :=
  Host.dotGeneral (F := Ideal) (φ₁ := .f32) (φ₂ := .f32) (DotDims.plain 50000 128 128) none (hidden V c) (V c main_arg3)

/-- The hidden layer at an index. -/
theorem hiddenOf_apply (Y Z : FVec Ideal S50000x128 .f32) (i : S50000x128.Idx) :
    hiddenOf Y Z i = max (Y i) (Scalar.ofBits (F := Ideal) .f32 0x00000000#32) + Z i := by
  unfold hiddenOf
  rw [addf_apply, Cert.Dense.relu_apply]

/-- The first store's payload at an index: the maximum with zero of the first block, plus the second. -/
theorem pay1_apply (x0 x1 : FVec Ideal S5000x128 .f32) (j : S5000x128.Idx) :
    (k1_pay1 x0 x1 : FVec Ideal S5000x128 .f32) j
      = max (x0 j) (Scalar.ofBits (F := Ideal) .f32 0x00000000#32) + x1 j := by
  unfold k1_pay1
  simp only [shapeCast_self]
  rfl

/-- The second store's payload at (p, q): row p of the first payload against column q of the W2 block. -/
theorem pay2_apply (x0 x1 : FVec Ideal S5000x128 .f32) (x2 : FVec Ideal S128x128 .f32) (p : Fin 5000) (q : Fin 128) :
    (k1_pay2 x0 x1 x2 : FVec Ideal S5000x128 .f32) (ix2 p q)
      = ∑ k : Fin 128, (k1_pay1 x0 x1 : FVec Ideal S5000x128 .f32) (ix2 p k) * x2 (ix2 k q) := by
  unfold k1_pay2
  exact Cert.PlainMatmul.matmul_zero_apply 5000 128 128 none (truncf .bf16 (k1_pay1 x0 x1) bitsLt_bf16_f32) (truncf .bf16 x2 bitsLt_bf16_f32) p q

/-- Row p of block t of the hidden layer, computed from the blocks, is row 5000 t + p of the hidden layer. -/
theorem pay1_row (c : Dev nD) (t : Fin cfg1.N) (p : Fin 5000) (q : Fin 128) (r : Fin 50000) (hr : r.val = t.val * 5000 + p.val) :
    (k1_pay1 (iblk1 V c 0 t) (iblk1 V c 1 t) : FVec Ideal S5000x128 .f32) (ix2 p q) = hidden V c (ix2 r q) := by
  refine (pay1_apply (iblk1 V c 0 t) (iblk1 V c 1 t) (ix2 p q)).trans ?_
  refine ((hiddenOf_apply (V c main_v14) (V c main_v1_1) (ix2 r q)).trans ?_).symm
  rw [sum_blk V c t p q r hr, res_blk V c t p q r hr]

/-- Where (p, q) of the block of a result window at point t sits in the result array. -/
theorem out3_emb (t : Fin cfg1.N) (p : Fin 5000) (q : Fin 128) (r : Fin 50000) (hr : r.val = t.val * 5000 + p.val) :
    ((cfg1.win 3).blk t).view.emb (ix2 p q) = (ix2 r q : S50000x128.Idx) := by
  obtain ⟨-, -, -, -, -, -, e6, e7, -⟩ := idx_facts t
  funext a
  apply Fin.ext
  match a with
  | ⟨0, _⟩ => show win1_3.index t (0 : Fin 2) * 5000 + 1 * p.val = r.val; rw [e6, hr]; omega
  | ⟨1, _⟩ => show win1_3.index t (1 : Fin 2) * 128 + 1 * q.val = q.val; rw [e7]; omega

theorem out4_emb (t : Fin cfg1.N) (p : Fin 5000) (q : Fin 128) (r : Fin 50000) (hr : r.val = t.val * 5000 + p.val) :
    ((cfg1.win 4).blk t).view.emb (ix2 p q) = (ix2 r q : S50000x128.Idx) := by
  obtain ⟨-, -, -, -, -, -, -, -, e8, e9⟩ := idx_facts t
  funext a
  apply Fin.ext
  match a with
  | ⟨0, _⟩ => show win1_4.index t (0 : Fin 2) * 5000 + 1 * p.val = r.val; rw [e8, hr]; omega
  | ⟨1, _⟩ => show win1_4.index t (1 : Fin 2) * 128 + 1 * q.val = q.val; rw [e9]; omega

/-- What point t writes back into the first result array is block t of the hidden layer. -/
theorem flushed3_eq (c : Dev nD) (t : Fin cfg1.N) :
    (dat1 V c).flushed 3 t = ((cfg1.win 3).blk t).view.read (Elt Ideal) (hidden V c) := by
  have ht : t.val < 10 := lt_of_lt_of_eq t.isLt N_1
  show (cfg1.win 3).cut (grid1.coords t) ((dat1 V c).after 3 t) = _
  rw [after1_3]
  unfold out1_3
  rw [View.canon_unit_zero hz]
  simp only [View.ld_unit_zero (S := S5000x128) hz]
  funext j
  obtain ⟨p, q, rfl⟩ : ∃ (p : Fin 5000) (q : Fin 128), j = ix2 p q := ⟨j 0, j 1, eq_ix2 j⟩
  show (k1_pay1 (iblk1 V c 0 t) (iblk1 V c 1 t) : FVec Ideal S5000x128 .f32) (ix2 p q) = hidden V c (((cfg1.win 3).blk t).view.emb (ix2 p q))
  have hp : p.val < 5000 := p.isLt
  rw [out3_emb t p q ⟨t.val * 5000 + p.val, by omega⟩ rfl]
  exact pay1_row V c t p q ⟨t.val * 5000 + p.val, by omega⟩ rfl

/-- What point t writes back into the second result array is block t of the hidden layer times W2. -/
theorem flushed4_eq (c : Dev nD) (t : Fin cfg1.N) :
    (dat1 V c).flushed 4 t = ((cfg1.win 4).blk t).view.read (Elt Ideal) (hiddenW2 V c) := by
  have ht : t.val < 10 := lt_of_lt_of_eq t.isLt N_1
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show (k1_pay2 (iblk1 V c 0 t) (iblk1 V c 1 t) (iblk1 V c 2 t) : FVec Ideal S5000x128 .f32) (ix2 p q) = hiddenW2 V c (((cfg1.win 4).blk t).view.emb (ix2 p q))
  have hp : p.val < 5000 := p.isLt
  rw [out4_emb t p q ⟨t.val * 5000 + p.val, by omega⟩ rfl]
  refine (pay2_apply (iblk1 V c 0 t) (iblk1 V c 1 t) (iblk1 V c 2 t) p q).trans ?_
  unfold hiddenW2
  refine ((Cert.LibHostReads.dotGeneral_plain_apply 50000 128 128 (φ₁ := .f32) (φ₂ := .f32) none (hidden V c) (V c main_arg3) ⟨t.val * 5000 + p.val, by omega⟩ q).trans ?_).symm
  refine Finset.sum_congr rfl fun k _ => ?_
  rw [pay1_row V c t p k ⟨t.val * 5000 + p.val, by omega⟩ rfl, w2_blk V c t]

/-! ## The ten blocks tile the rows -/

theorem mem_blk3 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v15_0).slice (win1_3.rect t)).set ↔ _
  rw [View.set_slice_whole, Rect.mem_set_unit]
  exact Iff.rfl

theorem mem_blk4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v15_1).slice (win1_4.rect t)).set ↔ _
  rw [View.set_slice_whole, Rect.mem_set_unit]
  exact Iff.rfl

/-- Row r lies in the block of point r / 5000. -/
theorem cover3 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e6, e7, -⟩ := idx_facts t
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

theorem cover4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e8, e9⟩ := idx_facts t
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; rw [e8, ht]; omega
  | ⟨1, _⟩ => show win1_4.index t (1 : Fin 2) * 128 ≤ (i 1).val ∧ (i 1).val < win1_4.index t (1 : Fin 2) * 128 + 128; rw [e9]; omega

/-- After the launch the first result array is the hidden layer. -/
theorem final3 (c : Dev nD) : (dat1 V c).arrAt 3 cfg1.N = hidden V c :=
  (dat1 V c).arrAt_eq_of_cover 3 (hidden V c) (fun t _ => flushed3_eq V c t) cover3

/-- After the launch the second result array is the hidden layer times W2. -/
theorem final4 (c : Dev nD) : (dat1 V c).arrAt 4 cfg1.N = hiddenW2 V c :=
  (dat1 V c).arrAt_eq_of_cover 4 (hiddenW2 V c) (fun t _ => flushed4_eq V c t) cover4

end Cert.KernelIdeal.Second

end
-- ==== Proof.WholeValue.lean ====
/-
  The idealized kernel's result array, as the reference's own stages.

  The program's buffers are followed through its five segments. The reshape makes the bias a [1, 128] row. The
  first launch leaves x · W1 and x · Wres + bias. The host then gathers rows of x · W1 by the (wrapped) column
  indices, scales them by the edge weights and adds them into the rows named by the row indices: the first
  neighbourhood sum. The second launch leaves the hidden layer (the maximum of that sum with zero, plus the residual
  term) and the hidden layer times W2. The host forms the second neighbourhood sum of that product, takes its
  maximum with zero and adds the hidden layer.

  The reference computes the same chain in one host program, and each stage above is literally one of its stages:
  the products are the same sums over the contracted axis, a reshape of a flat row to [1, 128] is its broadcast
  into [1, 128], and the gather, the scaling, the scatter-add, the maxima and the sums are the same host functions of
  the same operands. No law of arithmetic is used, so nothing is asked of the inputs.
-/
import proofs.«135990_j15195594293517_2_alg».proof.Proof.FirstLaunch
import proofs.«135990_j15195594293517_2_alg».proof.Proof.SecondLaunch
import proofs.«135990_j15195594293517_2_alg».proof.Proof.Gen.ReferenceIdeal.Read
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The eight arguments, as the launch finds them -/

abbrev a0 : (⟨S50000x64, .f32⟩ : BufTy).Contents (Elt Ideal) := m ((c : Thread nD τ).loc main_arg0)
abbrev a1 : (⟨S800000, .f32⟩ : BufTy).Contents (Elt Ideal) := m ((c : Thread nD τ).loc main_arg1)
abbrev a2 : (⟨S64x128, .f32⟩ : BufTy).Contents (Elt Ideal) := m ((c : Thread nD τ).loc main_arg2)
abbrev a3 : (⟨S128x128, .f32⟩ : BufTy).Contents (Elt Ideal) := m ((c : Thread nD τ).loc main_arg3)
abbrev a4 : (⟨S64x128, .f32⟩ : BufTy).Contents (Elt Ideal) := m ((c : Thread nD τ).loc main_arg4)
abbrev a5 : (⟨S128, .f32⟩ : BufTy).Contents (Elt Ideal) := m ((c : Thread nD τ).loc main_arg5)
abbrev a6 : (⟨S800000, .i32⟩ : BufTy).Contents (Elt Ideal) := m ((c : Thread nD τ).loc main_arg6)
abbrev a7 : (⟨S800000, .i32⟩ : BufTy).Contents (Elt Ideal) := m ((c : Thread nD τ).loc main_arg7)

/-! ## After the reshape -/

theorem w1_arg0 : W1 m ρ c (Proc.devRef .tc main_arg0) = a0 m c := by
  show StableHlo.after hostOps0 (W0 m ρ c) (Proc.devRef .tc main_arg0) = _
  after_results
theorem w1_arg1 : W1 m ρ c (Proc.devRef .tc main_arg1) = a1 m c := by
  show StableHlo.after hostOps0 (W0 m ρ c) (Proc.devRef .tc main_arg1) = _
  after_results
theorem w1_arg2 : W1 m ρ c (Proc.devRef .tc main_arg2) = a2 m c := by
  show StableHlo.after hostOps0 (W0 m ρ c) (Proc.devRef .tc main_arg2) = _
  after_results
theorem w1_arg3 : W1 m ρ c (Proc.devRef .tc main_arg3) = a3 m c := by
  show StableHlo.after hostOps0 (W0 m ρ c) (Proc.devRef .tc main_arg3) = _
  after_results
theorem w1_arg4 : W1 m ρ c (Proc.devRef .tc main_arg4) = a4 m c := by
  show StableHlo.after hostOps0 (W0 m ρ c) (Proc.devRef .tc main_arg4) = _
  after_results
theorem w1_arg6 : W1 m ρ c (Proc.devRef .tc main_arg6) = a6 m c := by
  show StableHlo.after hostOps0 (W0 m ρ c) (Proc.devRef .tc main_arg6) = _
  after_results
theorem w1_arg7 : W1 m ρ c (Proc.devRef .tc main_arg7) = a7 m c := by
  show StableHlo.after hostOps0 (W0 m ρ c) (Proc.devRef .tc main_arg7) = _
  after_results

/-- The bias as a [1, 128] row: the flat row reshaped. -/
theorem w1_bias : (W1 m ρ c (Proc.devRef .tc main_v0) : FVec Ideal S1x128 .f32) = shapeCast S1x128 (a5 m c) shapeCasts_S128_S1x128 := by
  show StableHlo.after hostOps0 (W0 m ρ c) (Proc.devRef .tc main_v0) = _
  after_results; rfl

/-! ## After the first launch -/

theorem w2_arg1 : W2 m ρ c (Proc.devRef .tc main_arg1) = a1 m c := (W2_of_ne m ρ c main_arg1 (by decide)).trans (w1_arg1 m ρ c)
theorem w2_arg3 : W2 m ρ c (Proc.devRef .tc main_arg3) = a3 m c := (W2_of_ne m ρ c main_arg3 (by decide)).trans (w1_arg3 m ρ c)
theorem w2_arg6 : W2 m ρ c (Proc.devRef .tc main_arg6) = a6 m c := (W2_of_ne m ρ c main_arg6 (by decide)).trans (w1_arg6 m ρ c)
theorem w2_arg7 : W2 m ρ c (Proc.devRef .tc main_arg7) = a7 m c := (W2_of_ne m ρ c main_arg7 (by decide)).trans (w1_arg7 m ρ c)

/-- The first result of the first launch is the reference's x · W1. -/
theorem w2_xw1 : W2 m ρ c (Proc.devRef .tc main_v1_0) = Cert.ReferenceIdeal.Read.val_main_v0 (F := Ideal) (a0 m c) (a2 m c) := by
  refine (W2_arr m ρ c 4).trans ((First.final4 (V1 m ρ) c).trans ?_)
  unfold First.xw1
  rw [show V1 m ρ c main_arg0 = a0 m c from w1_arg0 m ρ c, show V1 m ρ c main_arg2 = a2 m c from w1_arg2 m ρ c]
  rfl

/-- The second result of the first launch is the reference's x · Wres + bias. -/
theorem w2_xwres : W2 m ρ c (Proc.devRef .tc main_v1_1) = Cert.ReferenceIdeal.Read.val_main_v19 (F := Ideal) (a0 m c) (a4 m c) (a5 m c) := by
  refine (W2_arr m ρ c 5).trans ((First.final5 (V1 m ρ) Cert.ReferenceIdeal.Facts₀.bcast_S1x128_S50000x128_0_1 c).trans ?_)
  unfold First.xwres
  rw [show V1 m ρ c main_arg0 = a0 m c from w1_arg0 m ρ c, show V1 m ρ c main_arg4 = a4 m c from w1_arg4 m ρ c,
    show (V1 m ρ c main_v0 : FVec Ideal S1x128 .f32) = _ from w1_bias m ρ c,
    Cert.Dense.row_eq 128 (a5 m c) shapeCasts_S128_S1x128 Cert.ReferenceIdeal.Facts₀.bcast_S128_S1x128_1]
  rfl

/-! ## After the first neighbourhood sum -/

theorem w3_arg1 : W3 m ρ c (Proc.devRef .tc main_arg1) = a1 m c := by
  show StableHlo.after hostOps1 (W2 m ρ c) (Proc.devRef .tc main_arg1) = _
  after_results; exact w2_arg1 m ρ c
theorem w3_arg3 : W3 m ρ c (Proc.devRef .tc main_arg3) = a3 m c := by
  show StableHlo.after hostOps1 (W2 m ρ c) (Proc.devRef .tc main_arg3) = _
  after_results; exact w2_arg3 m ρ c
theorem w3_arg6 : W3 m ρ c (Proc.devRef .tc main_arg6) = a6 m c := by
  show StableHlo.after hostOps1 (W2 m ρ c) (Proc.devRef .tc main_arg6) = _
  after_results; exact w2_arg6 m ρ c
theorem w3_arg7 : W3 m ρ c (Proc.devRef .tc main_arg7) = a7 m c := by
  show StableHlo.after hostOps1 (W2 m ρ c) (Proc.devRef .tc main_arg7) = _
  after_results; exact w2_arg7 m ρ c
theorem w3_xwres : W3 m ρ c (Proc.devRef .tc main_v1_1) = Cert.ReferenceIdeal.Read.val_main_v19 (F := Ideal) (a0 m c) (a4 m c) (a5 m c) := by
  show StableHlo.after hostOps1 (W2 m ρ c) (Proc.devRef .tc main_v1_1) = _
  after_results; exact w2_xwres m ρ c

/-- The first neighbourhood sum is the reference's: the same gather, scaling and scatter-add of the same x · W1. -/
theorem w3_sum : W3 m ρ c (Proc.devRef .tc main_v14) = Cert.ReferenceIdeal.Read.val_main_v13 (F := Ideal) (a0 m c) (a1 m c) (a2 m c) (a6 m c) (a7 m c) := by
  show StableHlo.after hostOps1 (W2 m ρ c) (Proc.devRef .tc main_v14) = _
  after_results
  rw [w2_xw1 m ρ c, w2_arg1 m ρ c, w2_arg6 m ρ c, w2_arg7 m ρ c]
  rfl

/-! ## After the second launch -/

theorem w4_arg1 : W4 m ρ c (Proc.devRef .tc main_arg1) = a1 m c := (W4_of_ne m ρ c main_arg1 (by decide)).trans (w3_arg1 m ρ c)
theorem w4_arg6 : W4 m ρ c (Proc.devRef .tc main_arg6) = a6 m c := (W4_of_ne m ρ c main_arg6 (by decide)).trans (w3_arg6 m ρ c)
theorem w4_arg7 : W4 m ρ c (Proc.devRef .tc main_arg7) = a7 m c := (W4_of_ne m ρ c main_arg7 (by decide)).trans (w3_arg7 m ρ c)

/-- The hidden layer of the arrays the second launch is handed is the reference's hidden layer. -/
theorem hidden_eq : Second.hidden (V3 m ρ) c
    = Cert.ReferenceIdeal.Read.val_main_v20 (F := Ideal) (a0 m c) (a1 m c) (a2 m c) (a4 m c) (a5 m c) (a6 m c) (a7 m c) := by
  unfold Second.hidden
  rw [show V3 m ρ c main_v14 = _ from w3_sum m ρ c, show V3 m ρ c main_v1_1 = _ from w3_xwres m ρ c]
  unfold Second.hiddenOf
  rfl

/-- The first result of the second launch is the reference's hidden layer. -/
theorem w4_hidden : W4 m ρ c (Proc.devRef .tc main_v15_0)
    = Cert.ReferenceIdeal.Read.val_main_v20 (F := Ideal) (a0 m c) (a1 m c) (a2 m c) (a4 m c) (a5 m c) (a6 m c) (a7 m c) :=
  (W4_arr m ρ c 3).trans ((Second.final3 (V3 m ρ) c).trans (hidden_eq m ρ c))

/-- The second result of the second launch is the reference's hidden layer times W2. -/
theorem w4_hiddenW2 : W4 m ρ c (Proc.devRef .tc main_v15_1)
    = Cert.ReferenceIdeal.Read.val_main_v21 (F := Ideal) (a0 m c) (a1 m c) (a2 m c) (a3 m c) (a4 m c) (a5 m c) (a6 m c) (a7 m c) := by
  refine (W4_arr m ρ c 4).trans ((Second.final4 (V3 m ρ) c).trans ?_)
  unfold Second.hiddenW2
  rw [hidden_eq m ρ c, show V3 m ρ c main_arg3 = a3 m c from w3_arg3 m ρ c]
  rfl

/-! ## The result -/

set_option maxHeartbeats 2000000 in
/-- The result array is the reference's last stage of the eight arguments. -/
theorem result_eq : W5 m ρ c (Proc.devRef .tc main_v31)
    = Cert.ReferenceIdeal.Read.val_main_v37 (F := Ideal) (a0 m c) (a1 m c) (a2 m c) (a3 m c) (a4 m c) (a5 m c) (a6 m c) (a7 m c) := by
  show StableHlo.after hostOps2 (W4 m ρ c) (Proc.devRef .tc main_v31) = _
  after_results_simp
  rw [w4_hidden m ρ c, w4_hiddenW2 m ρ c, w4_arg1 m ρ c, w4_arg6 m ρ c, w4_arg7 m ρ c]
  rfl

end Cert.KernelIdeal.Whole

end
-- ==== Proof.lean ====
/-
  A two-layer graph convolution with residuals, kernel against reference, on the extended reals.

  Both programs compute, from node features x, edge weights, three weight matrices, a bias row and two index
  vectors naming the edges' end points,
      h   = max(A (x · W1), 0) + (x · Wres + bias)
      out = max(A (h · W2), 0) + h
  where A gathers rows by one index vector, scales them by the edge weights and adds them into the rows named by
  the other. The kernel computes the three products and the first maximum-and-residual on the matrix unit and the
  vector unit, ten blocks of 5000 rows at a time, and leaves the two neighbourhood sums and the last
  maximum-and-residual to the host; the reference does all of it on the host.

  At the ideal reading a change of float format is the identity and a product into a zero accumulator is the plain
  sum over the contracted axis, so a product computed block of rows by block of rows is the product of the whole
  array, and every stage of the kernel is one stage of the reference. The two results are then the same function
  of the eight arguments; no law of arithmetic that could fail at an infinity is used, so the precondition is never
  opened. The rewrite ledger of the idealization is empty, so the kernel and its idealization are one text.
-/
import proofs.«135990_j15195594293517_2_alg».proof.Defs
import proofs.«135990_j15195594293517_2_alg».proof.Proof.Gen.Kernel
import proofs.«135990_j15195594293517_2_alg».proof.Proof.Gen.Kernel.Frame
import proofs.«135990_j15195594293517_2_alg».proof.Proof.Gen.KernelIdeal
import proofs.«135990_j15195594293517_2_alg».proof.Proof.Gen.KernelIdeal.Frame
import proofs.«135990_j15195594293517_2_alg».proof.Proof.Gen.ReferenceIdeal
import proofs.«135990_j15195594293517_2_alg».proof.Proof.Gen.ReferenceIdeal.Run
import proofs.«135990_j15195594293517_2_alg».proof.Proof.Gen.ReferenceIdeal.Read
import proofs.«135990_j15195594293517_2_alg».proof.Proof.Gen.Pre_finite_inputs
import proofs.«135990_j15195594293517_2_alg».proof.Proof.KernelRun
import proofs.«135990_j15195594293517_2_alg».proof.Proof.WholeValue

noncomputable section

namespace Cert.Proof

open Idealize.ShloMosaic Idealize.SL.Sem

/-- The kernel as printed runs to the end and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the reference's last stage of the kernel's
    arguments in their result arrays. -/
theorem algebraic : Cert.algebraic_KernelIdeal_ReferenceIdeal := by
  intro m ρ m' ρ' _ hagree
  refine ⟨fun c => Cert.ReferenceIdeal.Read.val_main_v37 (F := Ideal) (Cert.KernelIdeal.Whole.a0 m c) (Cert.KernelIdeal.Whole.a1 m c) (Cert.KernelIdeal.Whole.a2 m c)
    (Cert.KernelIdeal.Whole.a3 m c) (Cert.KernelIdeal.Whole.a4 m c) (Cert.KernelIdeal.Whole.a5 m c) (Cert.KernelIdeal.Whole.a6 m c) (Cert.KernelIdeal.Whole.a7 m c), ?_, ?_⟩
  · exact (θ_run Cert.KernelIdeal.defs _ _).mono (fun _ h c => ⟨(h c).1.trans (Cert.KernelIdeal.Whole.result_eq m ρ c), (h c).2⟩)
      (Cert.KernelIdeal.Hand.run_result (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v37_eq]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
